-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S16x32 .f32) (main_arg6 : FVec F S32 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x16 .f32) (main_arg4 : FVec F S16 .f32) (main_arg5 : FVec F S16x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x3200000 : Shape := ⟨2, ![1, 3200000]⟩
abbrev S100000x16 : Shape := ⟨2, ![100000, 16]⟩
abbrev S10000x128 : Shape := ⟨2, ![10000, 128]⟩
abbrev S10000x16 : Shape := ⟨2, ![10000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩

abbrev nBuf : Space → Nat
  | .hbm => 125
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x16, .f32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x32, .f32⟩
  | .hbm, ⟨69, _⟩ => ⟨S100000, .i32⟩
  | .hbm, ⟨70, _⟩ => ⟨S3300000, .i32⟩
  | .hbm, ⟨71, _⟩ => ⟨S3300000, .i32⟩
  | .hbm, ⟨72, _⟩ => ⟨S_, .f32⟩
  | .hbm, ⟨73, _⟩ => ⟨S100000, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S3300000, .f32⟩
  | .hbm, ⟨97, _⟩ => ⟨S_, .i32⟩
  | .hbm, ⟨98, _⟩ => ⟨S3300000, .i32⟩
  | .hbm, ⟨99, _⟩ => ⟨S3300000, .i1⟩
  | .hbm, ⟨100, _⟩ => ⟨S_, .i32⟩
  | .hbm, ⟨101, _⟩ => ⟨S3300000, .i32⟩
  | .hbm, ⟨102, _⟩ => ⟨S3300000, .i32⟩
  | .hbm, ⟨103, _⟩ => ⟨S3300000, .i32⟩
  | .hbm, ⟨104, _⟩ => ⟨S3300000x1, .i32⟩
  | .hbm, ⟨105, _⟩ => ⟨S3300000, .f32⟩
  | .hbm, ⟨106, _⟩ => ⟨S3300000, .f32⟩
  | .hbm, ⟨107, _⟩ => ⟨S_, .i32⟩
  | .hbm, ⟨108, _⟩ => ⟨S3300000, .i32⟩
  | .hbm, ⟨109, _⟩ => ⟨S3300000, .i1⟩
  | .hbm, ⟨110, _⟩ => ⟨S_, .i32⟩
  | .hbm, ⟨111, _⟩ => ⟨S3300000, .i32⟩
  | .hbm, ⟨112, _⟩ => ⟨S3300000, .i32⟩
  | .hbm, ⟨113, _⟩ => ⟨S3300000, .i32⟩
  | .hbm, ⟨114, _⟩ => ⟨S3300000x1, .i32⟩
  | .hbm, ⟨115, _⟩ => ⟨S3300000x32, .f32⟩
  | .hbm, ⟨116, _⟩ => ⟨S3300000x1, .f32⟩
  | .hbm, ⟨117, _⟩ => ⟨S3300000x32, .f32⟩
  | .hbm, ⟨118, _⟩ => ⟨S3300000x32, .f32⟩
  | .hbm, ⟨119, _⟩ => ⟨S_, .f32⟩
  | .hbm, ⟨120, _⟩ => ⟨S100000x32, .f32⟩
  | .hbm, ⟨121, _⟩ => ⟨S3300000x1, .i32⟩
  | .hbm, ⟨122, _⟩ => ⟨S100000x32, .f32⟩
  | .hbm, ⟨123, _⟩ => ⟨S1x32, .f32⟩
  | .hbm, ⟨124, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  dot_S10000x128_S128x16_S10000x16_1_0_0_1_n_n_wf : DotDims.WF S10000x128 S128x16 S10000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x32_S10000x32_1_0_0_1_n_n_wf : DotDims.WF S10000x16 S16x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x3200000 : Shape := ⟨2, ![1, 3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x16, .f32⟩
  | 4 => ⟨S16, .f32⟩
  | 5 => ⟨S16x32, .f32⟩
  | 6 => ⟨S32, .f32⟩
  | 7 => ⟨S1x3200000, .i32⟩
  | 8 => ⟨S3200000, .i32⟩
  | 9 => ⟨S1x3200000, .i32⟩
  | 10 => ⟨S3200000, .i32⟩
  | 11 => ⟨S100000x16, .f32⟩
  | 12 => ⟨S100000, .i32⟩
  | 13 => ⟨S3300000, .i32⟩
  | 14 => ⟨S3300000, .i32⟩
  | 15 => ⟨S_, .f32⟩
  | 16 => ⟨S100000, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x32, .f32⟩
  | 73 => ⟨S100000, .i32⟩
  | 74 => ⟨S3300000, .i32⟩
  | 75 => ⟨S3300000, .i32⟩
  | 76 => ⟨S_, .f32⟩
  | 77 => ⟨S100000, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x32, .f32⟩
  | 120 => ⟨S3300000x1, .f32⟩
  | 121 => ⟨S3300000x32, .f32⟩
  | 122 => ⟨S3300000x32, .f32⟩
  | 123 => ⟨S_, .f32⟩
  | 124 => ⟨S100000x32, .f32⟩
  | 125 => ⟨S3300000x1, .i32⟩
  | 126 => ⟨S100000x32, .f32⟩
  | 127 => ⟨S1x32, .f32⟩
  | _ => ⟨S100000x128, .f32⟩

abbrev hbmTy0_1 (i : Nat) : BufTy := match i % 128 with
  | 0 => ⟨S100000x32, .f32⟩
  | 1 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.WholeRun.lean ====
/-
  The idealized kernel's program is four grid regions among stretches of host operations. Its frame module
  folds the buffer contents through the program: `Gen.W11 m ρ c` is what core `c` holds when @main returns
  (each host stretch applied to the contents before it, each region's arrays at what its ten write-backs leave).
  Here the same launch is read with NOTHING projected away: every weakly fair execution terminates, nothing
  faulting, in a state whose every unscoped buffer holds `Gen.W11 m ρ c` of it. The result array and the
  unchanged arguments are then two projections of one run.
-/
import proofs.«124742_j64982855189201_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, and in
    the final state every unscoped buffer of every core holds the fold's last contents `Gen.W11 m ρ c`:
    the launch over the program's eleven segments; the last thread state owns every unscoped buffer at those
    contents, and owning a buffer at some contents pins the physical memory to them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run with the result array named and the seven arguments as launched: the result buffer is
    unscoped, so it ends at the fold's last contents; no host operation and no region writes an argument. -/
theorem run_result : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v91 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)
    (run_all m ρ)

end Cert.KernelIdeal.WholeRun

end
-- ==== Proof.Aggregation.lean ====
/-
  The shared mathematics of the two programs: one layer's symmetric-normalized aggregation with self loops,
  as ONE function of the node features, the two end-point arrays of the edge list and the edge weights.

  With E = 3 200 000 edges and N = 100 000 nodes: every node gets a self loop of weight 1 (the end-point arrays
  and the weights are extended by the identity and by ones, to length E + N); the degree of a node is the sum
  of the weights of the extended edges that END at it; its normalizer is the inverse square root of the degree
  where the degree is positive and 0 elsewhere; an extended edge s → d of weight w carries the factor
  normalizer(s) · w · normalizer(d); and a node's output row is the sum, over the extended edges that end at it,
  of the source node's feature row times the edge's factor. An end point is looked up with the usual wrap of a
  negative index (N is added to it). Neither program's equivalence needs to know more about these operations
  than that both apply the same ones to the same arguments, so they are kept as named, unopened functions.
-/
import proofs.«124742_j64982855189201_1_alg».proof.Proof.Gen.ReferenceIdeal

noncomputable section

namespace Cert.Aggregation

open Cert.ReferenceIdeal Cert.ReferenceIdeal.Gen Idealize.ShloMosaic Idealize.ShloMosaic.TcCoe Idealize.SL.Sem Idealize.ShloMosaic.StableHlo

variable {F : FTy → Type} [FloatOps F]

/-- An end-point array of the edge list with one self loop per node appended: entries E … E + N − 1 are 0 … N − 1. -/
def withSelfLoops (a : (⟨S3200000, .i32⟩ : BufTy).Contents (Elt F)) : (⟨S3300000, .i32⟩ : BufTy).Contents (Elt F) :=
  concatenate S3300000 0 [⟨S3200000, a⟩, ⟨S100000, (iotaInDim S100000 32 0)⟩] concatenates_S3200000_S100000_S3300000_d0

/-- The edge weights with the self loops' weight 1 appended. -/
def withLoopWeights (ew : (⟨S3200000, .f32⟩ : BufTy).Contents (Elt F)) : (⟨S3300000, .f32⟩ : BufTy).Contents (Elt F) :=
  concatenate S3300000 0 [⟨S3200000, ew⟩, ⟨S100000, (broadcastInDim S100000 ![] bcast_S_S100000 (constant S_ .f32 0x3F800000#32))⟩] concatenates_S3200000_S100000_S3300000_d0

/-- The wrap of a negative node index: N is added to an entry below 0, the others stay. -/
def wrapNegative (s : (⟨S3300000, .i32⟩ : BufTy).Contents (Elt F)) : (⟨S3300000, .i32⟩ : BufTy).Contents (Elt F) :=
  select (cmpi .slt s (broadcastInDim S3300000 ![] bcast_S_S3300000 (constantI S_ 32 0#32)))
    (addi s (broadcastInDim S3300000 ![] bcast_S_S3300000 (constantI S_ 32 100000#32))) s

/-- The weighted in-degree of every node: the extended weights summed at their edges' end nodes. -/
def degree (dst : (⟨S3300000, .i32⟩ : BufTy).Contents (Elt F)) (w : (⟨S3300000, .f32⟩ : BufTy).Contents (Elt F)) :
    (⟨S100000, .f32⟩ : BufTy).Contents (Elt F) :=
  Host.scatterAdd scatter_S100000_S3300000x1_S3300000_n_0_0_1 (broadcastInDim S100000 ![] bcast_S_S100000 (constant S_ .f32 0x00000000#32))
    (broadcastInDim S3300000x1 ![0] bcast_S3300000_S3300000x1_0 dst) w

/-- A node's normalizer: the inverse square root of its degree where that is positive, 0 elsewhere. -/
def normalizer (deg : (⟨S100000, .f32⟩ : BufTy).Contents (Elt F)) : (⟨S100000, .f32⟩ : BufTy).Contents (Elt F) :=
  select (cmpf .ogt deg (broadcastInDim S100000 ![] bcast_S_S100000 (constant S_ .f32 0x00000000#32))) (Host.rsqrt deg)
    (broadcastInDim S100000 ![] bcast_S_S100000 (constant S_ .f32 0x00000000#32))

/-- A per-node array read at the (wrapped) nodes of an end-point array: one entry per extended edge. -/
def atNodes (x : (⟨S100000, .f32⟩ : BufTy).Contents (Elt F)) (s : (⟨S3300000, .i32⟩ : BufTy).Contents (Elt F)) :
    (⟨S3300000, .f32⟩ : BufTy).Contents (Elt F) :=
  Host.gather gather_S100000_S3300000x1_S3300000_n_0_n_n_0_1_1 x (broadcastInDim S3300000x1 ![0] bcast_S3300000_S3300000x1_0 (wrapNegative s))

/-- The factor of every extended edge s → d of weight w: normalizer(s) · w · normalizer(d). -/
def edgeFactor (src dst : (⟨S3300000, .i32⟩ : BufTy).Contents (Elt F)) (w : (⟨S3300000, .f32⟩ : BufTy).Contents (Elt F)) :
    (⟨S3300000, .f32⟩ : BufTy).Contents (Elt F) :=
  mulf (mulf (atNodes (normalizer (degree dst w)) src) w) (atNodes (normalizer (degree dst w)) dst)

/-- THE AGGREGATION at feature width 16: every node's row is the sum over the extended edges ending at it of
    the source node's row times the edge's factor. -/
def aggregate16 (xw : (⟨S100000x16, .f32⟩ : BufTy).Contents (Elt F)) (src dst : (⟨S3200000, .i32⟩ : BufTy).Contents (Elt F))
    (ew : (⟨S3200000, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32))
    (broadcastInDim S3300000x1 ![0] bcast_S3300000_S3300000x1_0 (withSelfLoops dst))
    (mulf (Host.gather gather_S100000x16_S3300000x1_S3300000x16_1_0_n_n_0_1_116 xw
        (broadcastInDim S3300000x1 ![0] bcast_S3300000_S3300000x1_0 (wrapNegative (withSelfLoops src))))
      (broadcastInDim S3300000x16 ![0, 1] bcast_S3300000x1_S3300000x16_0_1 (broadcastInDim S3300000x1 ![0] bcast_S3300000_S3300000x1_0
        (edgeFactor (withSelfLoops src) (withSelfLoops dst) (withLoopWeights ew)))))

/-- THE AGGREGATION at feature width 32: the same sum over rows of width 32. -/
def aggregate32 (xw : (⟨S100000x32, .f32⟩ : BufTy).Contents (Elt F)) (src dst : (⟨S3200000, .i32⟩ : BufTy).Contents (Elt F))
    (ew : (⟨S3200000, .f32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32))
    (broadcastInDim S3300000x1 ![0] bcast_S3300000_S3300000x1_0 (withSelfLoops dst))
    (mulf (Host.gather gather_S100000x32_S3300000x1_S3300000x32_1_0_n_n_0_1_132 xw
        (broadcastInDim S3300000x1 ![0] bcast_S3300000_S3300000x1_0 (wrapNegative (withSelfLoops src))))
      (broadcastInDim S3300000x32 ![0, 1] bcast_S3300000x1_S3300000x32_0_1 (broadcastInDim S3300000x1 ![0] bcast_S3300000_S3300000x1_0
        (edgeFactor (withSelfLoops src) (withSelfLoops dst) (withLoopWeights ew)))))

end Cert.Aggregation

end
-- ==== Proof.HostReads.lean ====
/-
  What the idealized kernel's host operations compute, stretch by stretch, from ANY buffer contents `V` they
  start at. Between its four grid regions the program runs three stretches of host operations:
    • before region 0: the two rows of the edge list are sliced out (`main_v1` the sources, `main_v3` the targets);
    • between regions 0 and 1: one layer's normalized aggregation (Aggregation.lean) of region 0's product
      `main_v4`, into `main_v45`, and the first bias vector reshaped to a row, `main_v46`;
    • between regions 2 and 3: the same aggregation at width 32 of region 2's product `main_v48`, into
      `main_v89`, and the second bias vector reshaped to a row, `main_v90`.
  Each lemma says what one buffer holds after a stretch in terms of what the buffers the stretch READS held before
  it; a buffer the stretch does not write holds what it held. They are statements about lists of operations
  and contents, true at every float instance; the aggregation is never opened.
-/
import proofs.«124742_j64982855189201_1_alg».proof.Proof.Gen.KernelIdeal.Launch
import proofs.«124742_j64982855189201_1_alg».proof.Proof.Aggregation

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

/-- The contents after the stretch between regions 0 and 1. -/
abbrev afterLayer1 : Valuation τ sig (Elt F) := StableHlo.after hostOps1_2 (StableHlo.after hostOps1_1 (StableHlo.after hostOps1 V))
/-- The contents after the stretch between regions 2 and 3. -/
abbrev afterLayer2 : Valuation τ sig (Elt F) := StableHlo.after hostOps3_2 (StableHlo.after hostOps3_1 (StableHlo.after hostOps3 V))

/-! ## Before region 0: the edge list's two rows -/

/-- The sources: row 0 of the edge list, as a vector. -/
theorem sources : StableHlo.after hostOps0 V (Proc.devRef .tc main_v1)
    = shapeCast S3200000 (extractStridedSlice S1x3200000 ![0, 0] (V (Proc.devRef .tc main_arg1)) slices_S2x3200000_S1x3200000_0_0) shapeCasts_S1x3200000_S3200000 := by
  dsimp only [hostOps0]
  after_results_simp <;> rfl

/-- The targets: row 1 of the edge list, as a vector. -/
theorem targets : StableHlo.after hostOps0 V (Proc.devRef .tc main_v3)
    = shapeCast S3200000 (extractStridedSlice S1x3200000 ![1, 0] (V (Proc.devRef .tc main_arg1)) slices_S2x3200000_S1x3200000_1_0) shapeCasts_S1x3200000_S3200000 := by
  dsimp only [hostOps0]
  after_results_simp <;> rfl

/-- Slicing the edge list writes no argument. -/
theorem slicing_keeps_arg0 : StableHlo.after hostOps0 V (Proc.devRef .tc main_arg0) = V (Proc.devRef .tc main_arg0) := by
  dsimp only [hostOps0]; after_results_simp <;> rfl
theorem slicing_keeps_arg2 : StableHlo.after hostOps0 V (Proc.devRef .tc main_arg2) = V (Proc.devRef .tc main_arg2) := by
  dsimp only [hostOps0]; after_results_simp <;> rfl
theorem slicing_keeps_arg3 : StableHlo.after hostOps0 V (Proc.devRef .tc main_arg3) = V (Proc.devRef .tc main_arg3) := by
  dsimp only [hostOps0]; after_results_simp <;> rfl
theorem slicing_keeps_arg4 : StableHlo.after hostOps0 V (Proc.devRef .tc main_arg4) = V (Proc.devRef .tc main_arg4) := by
  dsimp only [hostOps0]; after_results_simp <;> rfl
theorem slicing_keeps_arg5 : StableHlo.after hostOps0 V (Proc.devRef .tc main_arg5) = V (Proc.devRef .tc main_arg5) := by
  dsimp only [hostOps0]; after_results_simp <;> rfl
theorem slicing_keeps_arg6 : StableHlo.after hostOps0 V (Proc.devRef .tc main_arg6) = V (Proc.devRef .tc main_arg6) := by
  dsimp only [hostOps0]; after_results_simp <;> rfl

/-! ## Between regions 0 and 1: the first layer's aggregation and its bias row -/

set_option maxHeartbeats 2000000 in
/-- `main_v45` is the aggregation of `main_v4` along the edges `main_v1` → `main_v3` with the weights `main_arg2`. -/
theorem layer1_aggregate : afterLayer1 V (Proc.devRef .tc main_v45)
    = Cert.Aggregation.aggregate16 (V (Proc.devRef .tc main_v4)) (V (Proc.devRef .tc main_v1)) (V (Proc.devRef .tc main_v3)) (V (Proc.devRef .tc main_arg2)) := by
  dsimp only [afterLayer1, hostOps1, hostOps1_1, hostOps1_2]
  after_results_simp <;> rfl

set_option maxHeartbeats 2000000 in
/-- `main_v46` is the first bias vector as a 1 × 16 row. -/
theorem layer1_bias : afterLayer1 V (Proc.devRef .tc main_v46) = shapeCast S1x16 (V (Proc.devRef .tc main_arg4)) shapeCasts_S16_S1x16 := by
  dsimp only [afterLayer1, hostOps1, hostOps1_1, hostOps1_2]
  after_results_simp <;> rfl

set_option maxHeartbeats 2000000 in
/-- The stretch writes neither the edge list's rows nor the arguments the later regions and stretches read. -/
theorem layer1_keeps_v1 : afterLayer1 V (Proc.devRef .tc main_v1) = V (Proc.devRef .tc main_v1) := by
  dsimp only [afterLayer1, hostOps1, hostOps1_1, hostOps1_2]; after_results_simp <;> rfl
set_option maxHeartbeats 2000000 in
theorem layer1_keeps_v3 : afterLayer1 V (Proc.devRef .tc main_v3) = V (Proc.devRef .tc main_v3) := by
  dsimp only [afterLayer1, hostOps1, hostOps1_1, hostOps1_2]; after_results_simp <;> rfl
set_option maxHeartbeats 2000000 in
theorem layer1_keeps_arg2 : afterLayer1 V (Proc.devRef .tc main_arg2) = V (Proc.devRef .tc main_arg2) := by
  dsimp only [afterLayer1, hostOps1, hostOps1_1, hostOps1_2]; after_results_simp <;> rfl
set_option maxHeartbeats 2000000 in
theorem layer1_keeps_arg5 : afterLayer1 V (Proc.devRef .tc main_arg5) = V (Proc.devRef .tc main_arg5) := by
  dsimp only [afterLayer1, hostOps1, hostOps1_1, hostOps1_2]; after_results_simp <;> rfl
set_option maxHeartbeats 2000000 in
theorem layer1_keeps_arg6 : afterLayer1 V (Proc.devRef .tc main_arg6) = V (Proc.devRef .tc main_arg6) := by
  dsimp only [afterLayer1, hostOps1, hostOps1_1, hostOps1_2]; after_results_simp <;> rfl

/-! ## Between regions 2 and 3: the second layer's aggregation and its bias row -/

set_option maxHeartbeats 2000000 in
/-- `main_v89` is the aggregation of `main_v48` along the same edges with the same weights. -/
theorem layer2_aggregate : afterLayer2 V (Proc.devRef .tc main_v89)
    = Cert.Aggregation.aggregate32 (V (Proc.devRef .tc main_v48)) (V (Proc.devRef .tc main_v1)) (V (Proc.devRef .tc main_v3)) (V (Proc.devRef .tc main_arg2)) := by
  dsimp only [afterLayer2, hostOps3, hostOps3_1, hostOps3_2]
  after_results_simp <;> rfl

set_option maxHeartbeats 2000000 in
/-- `main_v90` is the second bias vector as a 1 × 32 row. -/
theorem layer2_bias : afterLayer2 V (Proc.devRef .tc main_v90) = shapeCast S1x32 (V (Proc.devRef .tc main_arg6)) shapeCasts_S32_S1x32 := by
  dsimp only [afterLayer2, hostOps3, hostOps3_1, hostOps3_2]
  after_results_simp <;> rfl

end Cert.KernelIdeal.HostReads

end
-- ==== Proof.MatmulBlocks.lean ====
/- The two matmul regions of the 2-layer graph convolution, as whole arrays.

   Each region multiplies a tall operand (100000 rows) by a small one, ten row blocks of 10000 rows at a time:
   at grid point t the body reads rows 10000·t … 10000·t + 9999 of the tall operand and the whole small operand,
   and writes the same rows of the result. Stated here, for arbitrary contents of the buffers when the region is
   entered: after the ten write-backs the result array holds, at row r and column j, the sum over k of
   (tall operand at (r, k)) · (small operand at (k, j)) — a format change is the identity on extended reals and the
   accumulator starts at zero, so nothing else is left of the body. -/
import proofs.«124742_j64982855189201_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Both offsets of a whole-block access are zero. -/
theorem zero_offsets : (![0, 0] : Fin 2 → Nat) = fun _ => 0 := funext fun a => by fin_cases a <;> rfl

/-! ## First matmul: [100000, 128] × [128, 16] -/

/-- Entry (row of `i`, `k`) of the left operand. -/
abbrev L0 (i : S100000x16.Idx) (k : Fin 128) : S100000x128.Idx := fun a => match a with
  | ⟨0, _⟩ => ⟨(i 0).val, (i 0).isLt⟩
  | ⟨1, _⟩ => ⟨k.val, k.isLt⟩
/-- Entry (`k`, column of `i`) of the right operand. -/
abbrev R0 (i : S100000x16.Idx) (k : Fin 128) : S128x16.Idx := fun a => match a with
  | ⟨0, _⟩ => ⟨k.val, k.isLt⟩
  | ⟨1, _⟩ => ⟨(i 1).val, (i 1).isLt⟩

/-- The same two entries inside one row block of 10000 rows. -/
abbrev blockL0 (y : S10000x16.Idx) (k : Fin 128) : S10000x128.Idx := fun a => match a with
  | ⟨0, _⟩ => ⟨(y 0).val, (y 0).isLt⟩
  | ⟨1, _⟩ => ⟨k.val, k.isLt⟩
abbrev blockR0 (y : S10000x16.Idx) (k : Fin 128) : S128x16.Idx := fun a => match a with
  | ⟨0, _⟩ => ⟨k.val, k.isLt⟩
  | ⟨1, _⟩ => ⟨(y 1).val, (y 1).isLt⟩

/-- Left operand index of the contraction, first coordinate: the output's row. -/
theorem lhs0_row (y : S10000x16.Idx) (q : dot_S10000x128_S128x16_S10000x16_1_0_0_1_n_n.contr.Idx) :
    (dot_S10000x128_S128x16_S10000x16_1_0_0_1_n_n.lhsIdx y q 0).val = (y 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
/-- … second coordinate: the contracted position. -/
theorem lhs0_col (y : S10000x16.Idx) (q : dot_S10000x128_S128x16_S10000x16_1_0_0_1_n_n.contr.Idx) :
    (dot_S10000x128_S128x16_S10000x16_1_0_0_1_n_n.lhsIdx y q 1).val = (q ⟨0, by decide⟩).val :=
  dot_S10000x128_S128x16_S10000x16_1_0_0_1_n_n.lhsIdx_val_of_single rfl y q
/-- Right operand index, first coordinate: the contracted position. -/
theorem rhs0_row (y : S10000x16.Idx) (q : dot_S10000x128_S128x16_S10000x16_1_0_0_1_n_n.contr.Idx) :
    (dot_S10000x128_S128x16_S10000x16_1_0_0_1_n_n.rhsIdx y q 0).val = (q ⟨0, by decide⟩).val :=
  dot_S10000x128_S128x16_S10000x16_1_0_0_1_n_n.rhsIdx_val_of_single rfl y q
/-- … second coordinate: the output's column. -/
theorem rhs0_col (y : S10000x16.Idx) (q : dot_S10000x128_S128x16_S10000x16_1_0_0_1_n_n.contr.Idx) :
    (dot_S10000x128_S128x16_S10000x16_1_0_0_1_n_n.rhsIdx y q 1).val = (y 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- One block's product: entry `y` of what the body stores is the sum over the 128 contracted positions of the
    block's row entry times the small operand's column entry. -/
theorem block_product0 (x : Vec Ideal S10000x128 .f32) (w : Vec Ideal S128x16 .f32) (y : S10000x16.Idx) :
    k0_pay1 (F := Ideal) x w y = ∑ k : Fin 128, x (blockL0 y k) * w (blockR0 y k) := by
  unfold k0_pay1
  simp only [matmul]
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx y ((ValueIdx.contrEquiv1 dot_S10000x128_S128x16_S10000x16_1_0_0_1_n_n 128 rfl rfl).symm k) = blockL0 y k := funext fun a => Fin.ext (by
    match a with
    | ⟨0, _⟩ => exact lhs0_row _ _
    | ⟨1, _⟩ => exact (lhs0_col _ _).trans hk)
  have er : dot_S10000x128_S128x16_S10000x16_1_0_0_1_n_n.rhsIdx y ((ValueIdx.contrEquiv1 dot_S10000x128_S128x16_S10000x16_1_0_0_1_n_n 128 rfl rfl).symm k) = blockR0 y k := funext fun a => Fin.ext (by
    match a with
    | ⟨0, _⟩ => exact (rhs0_row _ _).trans hk
    | ⟨1, _⟩ => exact rhs0_col _ _)
  rw [el, er]
  rfl

/-- The product array as one function of its two operand arrays. -/
abbrev product0 (a : S100000x128.Idx → EReal) (b : S128x16.Idx → EReal) : S100000x16.Idx → EReal :=
  fun i => ∑ k : Fin 128, a (L0 i k) * b (R0 i k)

/-- An entry of a block's product is the entry of the whole product that sits at the same place, whenever the
    block's operand entries are the arrays' entries at that place. -/
theorem block_entry0 (a : S100000x128.Idx → EReal) (b : S128x16.Idx → EReal)
    (x : Vec Ideal S10000x128 .f32) (w : Vec Ideal S128x16 .f32) (y : S10000x16.Idx) (i : S100000x16.Idx)
    (hx : ∀ k : Fin 128, x (blockL0 y k) = a (L0 i k)) (hw : ∀ k : Fin 128, w (blockR0 y k) = b (R0 i k)) :
    k0_pay1 (F := Ideal) x w y = product0 a b i := by
  rw [block_product0]
  exact Finset.sum_congr rfl fun k _ => by rw [hx k, hw k]

/-- Where the three windows' blocks sit at grid point `t`: the tall operand's and the result's are row block `t`
    (and the only column block); the small operand's is the whole array. Decided over the ten points. -/
theorem block_places0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region0
variable (V : (c : Dev nD) → (b : Ref sig .tc) → Buf (Elt Ideal) ((c : Thread nD τ).loc b))

/-- What grid point `t` writes back is row block `t` of the product of the two operand arrays as the region finds
    them. -/
theorem written_back0 (c : Dev nD) (t : Fin cfg0.N) :
    (dat0 (F := Ideal) V c).flushed 2 t
      = ((cfg0.win 2).blk t).view.read (Elt Ideal) (product0 (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x16) zero_offsets]
  obtain ⟨e0, e1, e2, e3, e4, e5⟩ := block_places0 t
  funext j
  show k0_pay1 (iblk0 V c 0 t) (iblk0 V c 1 t) j
    = product0 (V c main_arg0) (V c main_arg3) (((cfg0.win 2).blk t).view.emb j)
  refine block_entry0 _ _ _ _ j _ (fun k => ?_) (fun k => ?_)
  · show V c main_arg0 (((cfg0.win 0).blk t).view.emb (blockL0 j k))
      = V c main_arg0 (L0 (((cfg0.win 2).blk t).view.emb j) k)
    refine congrArg (V c main_arg0 : S100000x128.Idx → EReal) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V c main_arg3 (((cfg0.win 1).blk t).view.emb (blockR0 j k))
      = V c main_arg3 (R0 (((cfg0.win 2).blk t).view.emb j) k)
    refine congrArg (V c main_arg3 : S128x16.Idx → EReal) (funext fun a => Fin.ext ?_)
    match a with
    | ⟨0, _⟩ =>
      show win0_1.index t (0 : Fin 2) * 128 + 1 * k.val = k.val
      omega
    | ⟨1, _⟩ =>
      show win0_1.index t (1 : Fin 2) * 16 + 1 * (j 1).val = win0_2.index t (1 : Fin 2) * 16 + 1 * (j 1).val
      omega

/-- An index of the result array is in point `t`'s block iff each coordinate is in the block's range on its axis. -/
theorem in_block0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v4).slice (win0_2.rect t)).set ↔ _
  rw [View.set_slice_whole, Rect.mem_set_unit]
  exact Iff.rfl

/-- Every row of the result is in some point's block: row `r` in that of point `r / 10000`. -/
theorem rows_covered0 (i : S100000x16.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 16 := (i 1).isLt
  let t : Fin cfg0.N := ⟨(i 0).val / 10000, by rw [hN]; omega⟩
  obtain ⟨-, -, -, -, e4, e5⟩ := block_places0 t
  have ht : t.val = (i 0).val / 10000 := rfl
  refine ⟨t, flush0_2 t, ?_⟩
  rw [in_block0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- THE FIRST PRODUCT: after the ten write-backs the result array is the product of the two operand arrays as the
    region finds them, entry by entry (`product0 a b = fun i => ∑ k : Fin 128, a (L0 i k) * b (R0 i k)`). -/
theorem region0_array (c : Dev nD) :
    (dat0 (F := Ideal) V c).arrAt 2 cfg0.N = product0 (V c main_arg0) (V c main_arg3) :=
  (dat0 (F := Ideal) V c).arrAt_eq_of_cover 2 (product0 (V c main_arg0) (V c main_arg3))
    (fun t _ => written_back0 V c t) (rows_covered0)

/-- The same with the two operand arrays named. -/
theorem region0_array_of (c : Dev nD) (a : S100000x128.Idx → EReal) (b : S128x16.Idx → EReal)
    (ha : V c main_arg0 = a) (hb : V c main_arg3 = b) :
    (dat0 (F := Ideal) V c).arrAt 2 cfg0.N
      = ((fun i : S100000x16.Idx => ∑ k : Fin 128, a (L0 i k) * b (R0 i k)) : S100000x16.Idx → EReal) := by
  subst ha hb
  exact region0_array V c

end Region0

/-! ## Second matmul: [100000, 16] × [16, 32] -/

/-- Entry (row of `i`, `k`) of the left operand. -/
abbrev L2 (i : S100000x32.Idx) (k : Fin 16) : S100000x16.Idx := fun a => match a with
  | ⟨0, _⟩ => ⟨(i 0).val, (i 0).isLt⟩
  | ⟨1, _⟩ => ⟨k.val, k.isLt⟩
/-- Entry (`k`, column of `i`) of the right operand. -/
abbrev R2 (i : S100000x32.Idx) (k : Fin 16) : S16x32.Idx := fun a => match a with
  | ⟨0, _⟩ => ⟨k.val, k.isLt⟩
  | ⟨1, _⟩ => ⟨(i 1).val, (i 1).isLt⟩

/-- The same two entries inside one row block of 10000 rows. -/
abbrev blockL2 (y : S10000x32.Idx) (k : Fin 16) : S10000x16.Idx := fun a => match a with
  | ⟨0, _⟩ => ⟨(y 0).val, (y 0).isLt⟩
  | ⟨1, _⟩ => ⟨k.val, k.isLt⟩
abbrev blockR2 (y : S10000x32.Idx) (k : Fin 16) : S16x32.Idx := fun a => match a with
  | ⟨0, _⟩ => ⟨k.val, k.isLt⟩
  | ⟨1, _⟩ => ⟨(y 1).val, (y 1).isLt⟩

/-- Left operand index of the contraction, first coordinate: the output's row. -/
theorem lhs2_row (y : S10000x32.Idx) (q : dot_S10000x16_S16x32_S10000x32_1_0_0_1_n_n.contr.Idx) :
    (dot_S10000x16_S16x32_S10000x32_1_0_0_1_n_n.lhsIdx y q 0).val = (y 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
/-- … second coordinate: the contracted position. -/
theorem lhs2_col (y : S10000x32.Idx) (q : dot_S10000x16_S16x32_S10000x32_1_0_0_1_n_n.contr.Idx) :
    (dot_S10000x16_S16x32_S10000x32_1_0_0_1_n_n.lhsIdx y q 1).val = (q ⟨0, by decide⟩).val :=
  dot_S10000x16_S16x32_S10000x32_1_0_0_1_n_n.lhsIdx_val_of_single rfl y q
/-- Right operand index, first coordinate: the contracted position. -/
theorem rhs2_row (y : S10000x32.Idx) (q : dot_S10000x16_S16x32_S10000x32_1_0_0_1_n_n.contr.Idx) :
    (dot_S10000x16_S16x32_S10000x32_1_0_0_1_n_n.rhsIdx y q 0).val = (q ⟨0, by decide⟩).val :=
  dot_S10000x16_S16x32_S10000x32_1_0_0_1_n_n.rhsIdx_val_of_single rfl y q
/-- … second coordinate: the output's column. -/
theorem rhs2_col (y : S10000x32.Idx) (q : dot_S10000x16_S16x32_S10000x32_1_0_0_1_n_n.contr.Idx) :
    (dot_S10000x16_S16x32_S10000x32_1_0_0_1_n_n.rhsIdx y q 1).val = (y 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

/-- One block's product: entry `y` of what the body stores is the sum over the 16 contracted positions of the
    block's row entry times the small operand's column entry. -/
theorem block_product2 (x : Vec Ideal S10000x16 .f32) (w : Vec Ideal S16x32 .f32) (y : S10000x32.Idx) :
    k2_pay1 (F := Ideal) x w y = ∑ k : Fin 16, x (blockL2 y k) * w (blockR2 y k) := by
  unfold k2_pay1
  simp only [matmul, shapeCast_self]
  rw [Ideal.matmul_constant_zero_apply, ← Equiv.sum_comp (ValueIdx.contrEquiv1 dot_S10000x16_S16x32_S10000x32_1_0_0_1_n_n 16 rfl rfl).symm]
  refine Finset.sum_congr rfl fun k _ => ?_
  have hk := ValueIdx.contrEquiv1_symm_val dot_S10000x16_S16x32_S10000x32_1_0_0_1_n_n 16 rfl rfl k
  have el : dot_S10000x16_S16x32_S10000x32_1_0_0_1_n_n.lhsIdx y ((ValueIdx.contrEquiv1 dot_S10000x16_S16x32_S10000x32_1_0_0_1_n_n 16 rfl rfl).symm k) = blockL2 y k := funext fun a => Fin.ext (by
    match a with
    | ⟨0, _⟩ => exact lhs2_row _ _
    | ⟨1, _⟩ => exact (lhs2_col _ _).trans hk)
  have er : dot_S10000x16_S16x32_S10000x32_1_0_0_1_n_n.rhsIdx y ((ValueIdx.contrEquiv1 dot_S10000x16_S16x32_S10000x32_1_0_0_1_n_n 16 rfl rfl).symm k) = blockR2 y k := funext fun a => Fin.ext (by
    match a with
    | ⟨0, _⟩ => exact (rhs2_row _ _).trans hk
    | ⟨1, _⟩ => exact rhs2_col _ _)
  rw [el, er]
  rfl

/-- The product array as one function of its two operand arrays. -/
abbrev product2 (a : S100000x16.Idx → EReal) (b : S16x32.Idx → EReal) : S100000x32.Idx → EReal :=
  fun i => ∑ k : Fin 16, a (L2 i k) * b (R2 i k)

/-- An entry of a block's product is the entry of the whole product that sits at the same place, whenever the
    block's operand entries are the arrays' entries at that place. -/
theorem block_entry2 (a : S100000x16.Idx → EReal) (b : S16x32.Idx → EReal)
    (x : Vec Ideal S10000x16 .f32) (w : Vec Ideal S16x32 .f32) (y : S10000x32.Idx) (i : S100000x32.Idx)
    (hx : ∀ k : Fin 16, x (blockL2 y k) = a (L2 i k)) (hw : ∀ k : Fin 16, w (blockR2 y k) = b (R2 i k)) :
    k2_pay1 (F := Ideal) x w y = product2 a b i := by
  rw [block_product2]
  exact Finset.sum_congr rfl fun k _ => by rw [hx k, hw k]

/-- Where the three windows' blocks sit at grid point `t`: the tall operand's and the result's are row block `t`
    (and the only column block); the small operand's is the whole array. Decided over the ten points. -/
theorem block_places2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Region2
variable (V : (c : Dev nD) → (b : Ref sig .tc) → Buf (Elt Ideal) ((c : Thread nD τ).loc b))

/-- What grid point `t` writes back is row block `t` of the product of the two operand arrays as the region finds
    them. -/
theorem written_back2 (c : Dev nD) (t : Fin cfg2.N) :
    (dat2 (F := Ideal) V c).flushed 2 t
      = ((cfg2.win 2).blk t).view.read (Elt Ideal) (product2 (V c main_v47) (V c main_arg5)) := by
  show (cfg2.win 2).cut (grid2.coords t) ((dat2 V c).after 2 t) = _
  rw [after2_2]
  unfold out2_2
  rw [View.canon_unit_zero zero_offsets]
  simp only [View.ld_unit_zero (S := S10000x16) zero_offsets, View.ld_unit_zero (S := S16x32) zero_offsets]
  obtain ⟨e0, e1, e2, e3, e4, e5⟩ := block_places2 t
  funext j
  show k2_pay1 (iblk2 V c 0 t) (iblk2 V c 1 t) j
    = product2 (V c main_v47) (V c main_arg5) (((cfg2.win 2).blk t).view.emb j)
  refine block_entry2 _ _ _ _ j _ (fun k => ?_) (fun k => ?_)
  · show V c main_v47 (((cfg2.win 0).blk t).view.emb (blockL2 j k))
      = V c main_v47 (L2 (((cfg2.win 2).blk t).view.emb j) k)
    refine congrArg (V c main_v47 : S100000x16.Idx → EReal) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 16 + 1 * k.val = k.val
      omega
  · show V c main_arg5 (((cfg2.win 1).blk t).view.emb (blockR2 j k))
      = V c main_arg5 (R2 (((cfg2.win 2).blk t).view.emb j) k)
    refine congrArg (V c main_arg5 : S16x32.Idx → EReal) (funext fun a => Fin.ext ?_)
    match a with
    | ⟨0, _⟩ =>
      show win2_1.index t (0 : Fin 2) * 16 + 1 * k.val = k.val
      omega
    | ⟨1, _⟩ =>
      show win2_1.index t (1 : Fin 2) * 32 + 1 * (j 1).val = win2_2.index t (1 : Fin 2) * 32 + 1 * (j 1).val
      omega

/-- An index of the result array is in point `t`'s block iff each coordinate is in the block's range on its axis. -/
theorem in_block2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- Every row of the result is in some point's block: row `r` in that of point `r / 10000`. -/
theorem rows_covered2 (i : S100000x32.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 32 := (i 1).isLt
  let t : Fin cfg2.N := ⟨(i 0).val / 10000, by rw [hN]; omega⟩
  obtain ⟨-, -, -, -, e4, e5⟩ := block_places2 t
  have ht : t.val = (i 0).val / 10000 := rfl
  refine ⟨t, flush2_2 t, ?_⟩
  rw [in_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- THE SECOND PRODUCT: after the ten write-backs the result array is the product of the two operand arrays as the
    region finds them, entry by entry (`product2 a b = fun i => ∑ k : Fin 16, a (L2 i k) * b (R2 i k)`). -/
theorem region2_array (c : Dev nD) :
    (dat2 (F := Ideal) V c).arrAt 2 cfg2.N = product2 (V c main_v47) (V c main_arg5) :=
  (dat2 (F := Ideal) V c).arrAt_eq_of_cover 2 (product2 (V c main_v47) (V c main_arg5))
    (fun t _ => written_back2 V c t) (rows_covered2)

/-- The same with the two operand arrays named. -/
theorem region2_array_of (c : Dev nD) (a : S100000x16.Idx → EReal) (b : S16x32.Idx → EReal)
    (ha : V c main_v47 = a) (hb : V c main_arg5 = b) :
    (dat2 (F := Ideal) V c).arrAt 2 cfg2.N
      = ((fun i : S100000x32.Idx => ∑ k : Fin 16, a (L2 i k) * b (R2 i k)) : S100000x32.Idx → EReal) := by
  subst ha hb
  exact region2_array V c

end Region2

end Cert.KernelIdeal.Blocks

end
-- ==== Proof.BiasBlocks.lean ====
/- The two bias regions of the two-layer graph convolution, each read as ONE
   function of the arrays the region finds. Region 3 adds the bias row to every row of its [100000, 32]
   operand; region 1 does the same at width 16 and then takes the maximum with zero. Both run over ten
   row blocks of 10000 rows; block `t` of the output is written back at point `t` from block `t` of the
   operand and the whole one-row bias array. Written here: the body's stored value at an index of a block
   (`bias_block3`, `bias_relu_block1`), what point `t` writes back as block `t` of the whole-array
   function (`written3`, `written1`), every row lying in the block of the point `row / 10000`
   (`row_covered3`, `row_covered1`), and the arrays after all ten write-backs (`region3_array`,
   `region1_array`). -/
import proofs.«124742_j64982855189201_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets of a whole-block access, as the constant function. -/
theorem origin_offsets : (![0, 0] : Fin 2 → Nat) = fun _ => 0 := funext fun a => by fin_cases a <;> rfl

/-! ## Region 3: a [1, 32] bias row added to every row of a [100000, 32] array -/

/-- The bias entry that row-broadcasting pairs with array index `i`: row 0, `i`'s column. -/
abbrev B3 (i : S100000x32.Idx) : S1x32.Idx := fun a => match a with | ⟨0, _⟩ => ⟨0, Nat.one_pos⟩ | ⟨1, _⟩ => ⟨(i 1).val, (i 1).isLt⟩

/-- The same pairing inside one block of 10000 rows. -/
abbrev blockB3 (y : S10000x32.Idx) : S1x32.Idx := fun a => match a with | ⟨0, _⟩ => ⟨0, Nat.one_pos⟩ | ⟨1, _⟩ => ⟨(y 1).val, (y 1).isLt⟩

/-- The body's stored value at index `y` of a block: the shape casts are identities, the broadcast reads the
    bias row at `y`'s column, and the sum is elementwise. -/
theorem bias_block3 (x : Vec F S10000x32 .f32) (b : Vec F S1x32 .f32) (y : S10000x32.Idx) :
    k3_pay1 x b y = FloatOps.addf (x y) (b (blockB3 y)) := by
  unfold k3_pay1
  rw [shapeCast_self, shapeCast_self, shapeCast_self]
  show FloatOps.addf (x y) (broadcastTo S10000x32 b broadcasts_S1x32_S10000x32 y) = _
  refine congrArg (FloatOps.addf (x y)) (broadcastTo_apply b _ y (blockB3 y) fun a => ?_)
  match a with
  | ⟨0, _⟩ => rfl
  | ⟨1, _⟩ => rfl

section Region3
-- the buffer contents the region finds: an arbitrary parameter, never unfolded
variable (V : (c : Dev nD) → (b : Ref sig .tc) → Buf (Elt F) ((c : Thread nD τ).loc b))

/-- The array region 3 leaves, as one function of the operand `x` and the bias row `b`: entry `(r, k)` is
    `x (r, k) + b (0, k)`. -/
abbrev biasRows3 (x : S100000x32.Idx → Elt F .f32) (b : S1x32.Idx → Elt F .f32) : S100000x32.Idx → Elt F .f32 :=
  fun i => FloatOps.addf (x i) (b (B3 i))

/-- The block indices of the three windows at point `t`, decided over the ten points: the operand's and the
    output's row block is `t` (column block 0), the bias window's block is always the whole [1, 32] array. -/
theorem block_index3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of `biasRows3` of the operand and the bias as the region finds them:
    row `y` of the operand's block `t` is row `t * 10000 + y` of the array, as for the output's block, and the
    bias block is the whole bias array. -/
theorem written3 (c : Dev nD) (t : Fin cfg3.N) :
    (dat3 V c).flushed 2 t = ((cfg3.win 2).blk t).view.read (Elt F) (biasRows3 (V c main_v89) (V c main_v90)) := by
  show (cfg3.win 2).cut (grid3.coords t) ((dat3 V c).after 2 t) = _
  rw [after3_2]
  unfold out3_2
  rw [View.canon_unit_zero origin_offsets]
  simp only [View.ld_unit_zero (S := S10000x32) origin_offsets, View.ld_unit_zero (S := S1x32) origin_offsets]
  obtain ⟨e0, e1, e2, e3, e4, e5⟩ := block_index3 t
  funext j
  refine (bias_block3 (iblk3 V c 0 t) (iblk3 V c 1 t) j).trans ?_
  show FloatOps.addf (V c main_v89 (((cfg3.win 0).blk t).view.emb j)) (V c main_v90 (((cfg3.win 1).blk t).view.emb (blockB3 j)))
    = FloatOps.addf (V c main_v89 (((cfg3.win 2).blk t).view.emb j)) (V c main_v90 (B3 (((cfg3.win 2).blk t).view.emb j)))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (blockB3 j) = B3 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]

/-- An index of the array is in point `t`'s output block iff each coordinate is in the block's range on its axis. -/
theorem in_block3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v91).slice (win3_2.rect t)).set ↔ _
  rw [View.set_slice_whole, Rect.mem_set_unit]
  exact Iff.rfl

/-- EVERY INDEX IS WRITTEN: row `r` lies in the block of the point `r / 10000` (ten blocks of 10000 rows are the
    100000 rows), and every point writes back. -/
theorem row_covered3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e4, e5⟩ := block_index3 t
  refine ⟨t, flush3_2 t, ?_⟩
  rw [in_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- THE ARRAY AFTER REGION 3's ten write-backs: the operand plus the bias row, entry by entry. -/
theorem region3_array (c : Dev nD) :
    (dat3 V c).arrAt 2 cfg3.N = fun i : S100000x32.Idx => FloatOps.addf (V c main_v89 i) (V c main_v90 (B3 i)) :=
  (dat3 V c).arrAt_eq_of_cover 2 (biasRows3 (V c main_v89) (V c main_v90)) (fun t _ => written3 V c t) row_covered3

end Region3

/-! ## Region 1: a [1, 16] bias row added to every row of a [100000, 16] array, then the maximum with zero -/

/-- The bias entry that row-broadcasting pairs with array index `i`: row 0, `i`'s column. -/
abbrev B1 (i : S100000x16.Idx) : S1x16.Idx := fun a => match a with | ⟨0, _⟩ => ⟨0, Nat.one_pos⟩ | ⟨1, _⟩ => ⟨(i 1).val, (i 1).isLt⟩

/-- The same pairing inside one block of 10000 rows. -/
abbrev blockB1 (y : S10000x16.Idx) : S1x16.Idx := fun a => match a with | ⟨0, _⟩ => ⟨0, Nat.one_pos⟩ | ⟨1, _⟩ => ⟨(y 1).val, (y 1).isLt⟩

/-- The body's stored value at index `y` of a block: the shape casts are identities, the broadcast reads the
    bias row at `y`'s column, the sum is elementwise, and the splat of the zero word reads that word everywhere. -/
theorem bias_relu_block1 (x : Vec F S10000x16 .f32) (b : Vec F S1x16 .f32) (y : S10000x16.Idx) :
    k1_pay1 x b y = FloatOps.maximumf (FloatOps.addf (x y) (b (blockB1 y))) (Scalar.ofBits (F := F) .f32 0x00000000#32) := by
  unfold k1_pay1
  rw [shapeCast_self, shapeCast_self, shapeCast_self]
  show FloatOps.maximumf (FloatOps.addf (x y) (broadcastTo S10000x16 b broadcasts_S1x16_S10000x16 y)) (Scalar.ofBits (F := F) .f32 0x00000000#32) = _
  refine congrArg (fun z => FloatOps.maximumf (FloatOps.addf (x y) z) (Scalar.ofBits (F := F) .f32 0x00000000#32))
    (broadcastTo_apply b _ y (blockB1 y) fun a => ?_)
  match a with
  | ⟨0, _⟩ => rfl
  | ⟨1, _⟩ => rfl

section Region1
-- the buffer contents the region finds: an arbitrary parameter, never unfolded
variable (V : (c : Dev nD) → (b : Ref sig .tc) → Buf (Elt F) ((c : Thread nD τ).loc b))

/-- The array region 1 leaves, as one function of the operand `x` and the bias row `b`: entry `(r, k)` is
    `max (x (r, k) + b (0, k)) 0`. -/
abbrev biasReluRows1 (x : S100000x16.Idx → Elt F .f32) (b : S1x16.Idx → Elt F .f32) : S100000x16.Idx → Elt F .f32 :=
  fun i => FloatOps.maximumf (FloatOps.addf (x i) (b (B1 i))) (Scalar.ofBits (F := F) .f32 0x00000000#32)

/-- The block indices of the three windows at point `t`, decided over the ten points: the operand's and the
    output's row block is `t` (column block 0), the bias window's block is always the whole [1, 16] array. -/
theorem block_index1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of `biasReluRows1` of the operand and the bias as the region finds
    them: row `y` of the operand's block `t` is row `t * 10000 + y` of the array, as for the output's block, and
    the bias block is the whole bias array. -/
theorem written1 (c : Dev nD) (t : Fin cfg1.N) :
    (dat1 V c).flushed 2 t = ((cfg1.win 2).blk t).view.read (Elt F) (biasReluRows1 (V c main_v45) (V c main_v46)) := by
  show (cfg1.win 2).cut (grid1.coords t) ((dat1 V c).after 2 t) = _
  rw [after1_2]
  unfold out1_2
  rw [View.canon_unit_zero origin_offsets]
  simp only [View.ld_unit_zero (S := S10000x16) origin_offsets, View.ld_unit_zero (S := S1x16) origin_offsets]
  obtain ⟨e0, e1, e2, e3, e4, e5⟩ := block_index1 t
  funext j
  refine (bias_relu_block1 (iblk1 V c 0 t) (iblk1 V c 1 t) j).trans ?_
  show FloatOps.maximumf (FloatOps.addf (V c main_v45 (((cfg1.win 0).blk t).view.emb j)) (V c main_v46 (((cfg1.win 1).blk t).view.emb (blockB1 j)))) (Scalar.ofBits (F := F) .f32 0x00000000#32)
    = FloatOps.maximumf (FloatOps.addf (V c main_v45 (((cfg1.win 2).blk t).view.emb j)) (V c main_v46 (B1 (((cfg1.win 2).blk t).view.emb j)))) (Scalar.ofBits (F := F) .f32 0x00000000#32)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (blockB1 j) = B1 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega
  rw [h0, h1]

/-- An index of the array is in point `t`'s output block iff each coordinate is in the block's range on its axis. -/
theorem in_block1 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v47).slice (win1_2.rect t)).set ↔ _
  rw [View.set_slice_whole, Rect.mem_set_unit]
  exact Iff.rfl

/-- EVERY INDEX IS WRITTEN: row `r` lies in the block of the point `r / 10000` (ten blocks of 10000 rows are the
    100000 rows), and every point writes back. -/
theorem row_covered1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := block_index1 t
  refine ⟨t, flush1_2 t, ?_⟩
  rw [in_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- THE ARRAY AFTER REGION 1's ten write-backs: the operand plus the bias row, then the maximum with zero,
    entry by entry. -/
theorem region1_array (c : Dev nD) :
    (dat1 V c).arrAt 2 cfg1.N
      = fun i : S100000x16.Idx => FloatOps.maximumf (FloatOps.addf (V c main_v45 i) (V c main_v46 (B1 i))) (Scalar.ofBits (F := F) .f32 0x00000000#32) :=
  (dat1 V c).arrAt_eq_of_cover 2 (biasReluRows1 (V c main_v45) (V c main_v46)) (fun t _ => written1 V c t) row_covered1

end Region1

end Cert.KernelIdeal.Blocks

end
-- ==== Proof.KernelValue.lean ====
/-
  What the idealized kernel's result array holds when @main returns, as the reference's own last stage of the
  seven arguments.

  The program's buffer contents are folded through its segments (the frame module's `W0 … W11`); the result array
  is region 3's output at the end of that fold. Going down the fold from the launch:
    • before region 0 the edge list's two rows are sliced out — the reference slices them the same way;
    • region 0 leaves x · W1 (its ten row blocks are the whole product's rows, Proof/MatmulBlocks.lean);
    • the host operations after it aggregate that product (Proof/HostReads.lean), which is the reference's
      aggregated first layer because the reference aggregates the same product by the same operations;
    • region 1 adds the bias row and cuts negative entries to zero (Proof/BiasBlocks.lean) — the kernel's bias row
      is the bias vector reshaped to 1 × 16, the reference's the vector broadcast into a new leading axis: one row;
    • region 2 leaves h · W2; the host operations aggregate it; region 3 adds the second bias row.
  Buffers a segment does not write are carried along unchanged; each step below is one such reading.
-/
import proofs.«124742_j64982855189201_1_alg».proof.Proof.Gen.KernelIdeal.Frame
import proofs.«124742_j64982855189201_1_alg».proof.Proof.Gen.ReferenceIdeal.Read
import proofs.«124742_j64982855189201_1_alg».proof.Proof.HostReads
import proofs.«124742_j64982855189201_1_alg».proof.Proof.MatmulBlocks
import proofs.«124742_j64982855189201_1_alg».proof.Proof.BiasBlocks
import Idealize.ShloMosaic.Lib.Pipeline.Value
import Idealize.ShloMosaic.Lib.ValueIdx

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The two bias rows: a vector reshaped to one row is the vector broadcast along a new leading axis -/

/-- A 16-vector as a 1 × 16 row, read at (0, j), is the vector at j: the reshape and the broadcast into a new
    leading unit axis are the same row. -/
theorem row16 (b : (⟨S16, .f32⟩ : BufTy).Contents (Elt Ideal)) :
    shapeCast S1x16 b shapeCasts_S16_S1x16 = Cert.ReferenceIdeal.Read.val_main_v46 (F := Ideal) b := by
  funext j
  rw [Cert.ReferenceIdeal.Read.val_main_v46_apply]
  refine shapeCast_apply b shapeCasts_S16_S1x16 j _ ?_
  rw [Shape.rowMajor_val_one, Shape.rowMajor_val_two]
  have h0 : (j 0).val < 1 := (j 0).isLt
  show (j 1).val = (j 0).val * 16 + (j 1).val
  omega

/-- The same for the 32-vector of the second layer. -/
theorem row32 (b : (⟨S32, .f32⟩ : BufTy).Contents (Elt Ideal)) :
    shapeCast S1x32 b shapeCasts_S32_S1x32 = Cert.ReferenceIdeal.Read.val_main_v92 (F := Ideal) b := by
  funext j
  rw [Cert.ReferenceIdeal.Read.val_main_v92_apply]
  refine shapeCast_apply b shapeCasts_S32_S1x32 j _ ?_
  rw [Shape.rowMajor_val_one, Shape.rowMajor_val_two]
  have h0 : (j 0).val < 1 := (j 0).isLt
  show (j 1).val = (j 0).val * 32 + (j 1).val
  omega

/-! ## Region 0's entry: the sliced edge list and the untouched arguments -/

theorem entry0_arg0 : V1 m ρ c main_arg0 = m ((c.tc : Thread nD τ).loc main_arg0) := (HostReads.slicing_keeps_arg0 _).trans rfl
theorem entry0_arg3 : V1 m ρ c main_arg3 = m ((c.tc : Thread nD τ).loc main_arg3) := (HostReads.slicing_keeps_arg3 _).trans rfl

/-! ## Region 0's exit -/

/-- The sources and targets of the edge list, as the reference slices them. -/
theorem exit0_sources : W2 m ρ c (Proc.devRef .tc main_v1) = Cert.ReferenceIdeal.Read.val_main_v1 (F := Ideal) (m ((c.tc : Thread nD τ).loc main_arg1)) :=
  (W2_of_ne m ρ c main_v1 (by decide)).trans ((HostReads.sources _).trans rfl)
theorem exit0_targets : W2 m ρ c (Proc.devRef .tc main_v3) = Cert.ReferenceIdeal.Read.val_main_v3 (F := Ideal) (m ((c.tc : Thread nD τ).loc main_arg1)) :=
  (W2_of_ne m ρ c main_v3 (by decide)).trans ((HostReads.targets _).trans rfl)
theorem exit0_arg2 : W2 m ρ c (Proc.devRef .tc main_arg2) = m ((c.tc : Thread nD τ).loc main_arg2) :=
  (W2_of_ne m ρ c main_arg2 (by decide)).trans ((HostReads.slicing_keeps_arg2 _).trans rfl)
theorem exit0_arg4 : W2 m ρ c (Proc.devRef .tc main_arg4) = m ((c.tc : Thread nD τ).loc main_arg4) :=
  (W2_of_ne m ρ c main_arg4 (by decide)).trans ((HostReads.slicing_keeps_arg4 _).trans rfl)
theorem exit0_arg5 : W2 m ρ c (Proc.devRef .tc main_arg5) = m ((c.tc : Thread nD τ).loc main_arg5) :=
  (W2_of_ne m ρ c main_arg5 (by decide)).trans ((HostReads.slicing_keeps_arg5 _).trans rfl)
theorem exit0_arg6 : W2 m ρ c (Proc.devRef .tc main_arg6) = m ((c.tc : Thread nD τ).loc main_arg6) :=
  (W2_of_ne m ρ c main_arg6 (by decide)).trans ((HostReads.slicing_keeps_arg6 _).trans rfl)

/-- The first product: the ten row blocks of x · W1, each a zero-accumulator block product, are the rows of
    the whole product. -/
theorem exit0_product : W2 m ρ c (Proc.devRef .tc main_v4)
    = Cert.ReferenceIdeal.Read.val_main_v4 (F := Ideal) (m ((c.tc : Thread nD τ).loc main_arg0)) (m ((c.tc : Thread nD τ).loc main_arg3)) := by
  refine (W2_arr m ρ c 2).trans ?_
  rw [Blocks.region0_array (V1 m ρ) c, entry0_arg0, entry0_arg3]
  funext i
  exact (Cert.ReferenceIdeal.Read.val_main_v4_apply _ _ i).symm

/-! ## Region 1's entry: the first layer aggregated, and its bias row -/

theorem entry1_aggregate : V5 m ρ c main_v45
    = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) := by
  refine (HostReads.layer1_aggregate (W2 m ρ c)).trans ?_
  rw [exit0_product, exit0_sources, exit0_targets, exit0_arg2]
  rfl

theorem entry1_bias : V5 m ρ c main_v46 = Cert.ReferenceIdeal.Read.val_main_v46 (F := Ideal) (m ((c.tc : Thread nD τ).loc main_arg4)) := by
  refine (HostReads.layer1_bias (W2 m ρ c)).trans ?_
  rw [exit0_arg4]
  exact row16 _

/-! ## Region 1's exit: bias added, negative entries cut to zero -/

theorem exit1_hidden : W6 m ρ c (Proc.devRef .tc main_v47)
    = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 2).trans ?_
  rw [Blocks.region1_array (F := Ideal) (V5 m ρ) c, entry1_aggregate, entry1_bias]
  funext i
  rw [Cert.ReferenceIdeal.Read.val_main_v49_apply, Cert.ReferenceIdeal.Read.val_main_v48_apply, Cert.ReferenceIdeal.Read.val_main_v47_apply, Cert.ReferenceIdeal.Read.val_main_call1_v0_apply, Cert.ReferenceIdeal.Read.val_main_call1_cst_apply]
  rfl

theorem exit1_sources : W6 m ρ c (Proc.devRef .tc main_v1) = Cert.ReferenceIdeal.Read.val_main_v1 (F := Ideal) (m ((c.tc : Thread nD τ).loc main_arg1)) :=
  (W6_of_ne m ρ c main_v1 (by decide)).trans ((HostReads.layer1_keeps_v1 _).trans (exit0_sources m ρ c))
theorem exit1_targets : W6 m ρ c (Proc.devRef .tc main_v3) = Cert.ReferenceIdeal.Read.val_main_v3 (F := Ideal) (m ((c.tc : Thread nD τ).loc main_arg1)) :=
  (W6_of_ne m ρ c main_v3 (by decide)).trans ((HostReads.layer1_keeps_v3 _).trans (exit0_targets m ρ c))
theorem exit1_arg2 : W6 m ρ c (Proc.devRef .tc main_arg2) = m ((c.tc : Thread nD τ).loc main_arg2) :=
  (W6_of_ne m ρ c main_arg2 (by decide)).trans ((HostReads.layer1_keeps_arg2 _).trans (exit0_arg2 m ρ c))
theorem exit1_arg5 : W6 m ρ c (Proc.devRef .tc main_arg5) = m ((c.tc : Thread nD τ).loc main_arg5) :=
  (W6_of_ne m ρ c main_arg5 (by decide)).trans ((HostReads.layer1_keeps_arg5 _).trans (exit0_arg5 m ρ c))
theorem exit1_arg6 : W6 m ρ c (Proc.devRef .tc main_arg6) = m ((c.tc : Thread nD τ).loc main_arg6) :=
  (W6_of_ne m ρ c main_arg6 (by decide)).trans ((HostReads.layer1_keeps_arg6 _).trans (exit0_arg6 m ρ c))

/-! ## Region 2's exit: the second product -/

theorem exit2_product : W7 m ρ c (Proc.devRef .tc main_v48)
    = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 2).trans ?_
  rw [Blocks.region2_array (V6 m ρ) c]
  have e47 : V6 m ρ c main_v47 = _ := exit1_hidden m ρ c
  have e5 : V6 m ρ c main_arg5 = _ := exit1_arg5 m ρ c
  rw [e47, e5]
  funext i
  exact (Cert.ReferenceIdeal.Read.val_main_v50_apply _ _ _ _ _ _ i).symm

theorem exit2_sources : W7 m ρ c (Proc.devRef .tc main_v1) = Cert.ReferenceIdeal.Read.val_main_v1 (F := Ideal) (m ((c.tc : Thread nD τ).loc main_arg1)) :=
  (W7_of_ne m ρ c main_v1 (by decide)).trans (exit1_sources m ρ c)
theorem exit2_targets : W7 m ρ c (Proc.devRef .tc main_v3) = Cert.ReferenceIdeal.Read.val_main_v3 (F := Ideal) (m ((c.tc : Thread nD τ).loc main_arg1)) :=
  (W7_of_ne m ρ c main_v3 (by decide)).trans (exit1_targets m ρ c)
theorem exit2_arg2 : W7 m ρ c (Proc.devRef .tc main_arg2) = m ((c.tc : Thread nD τ).loc main_arg2) :=
  (W7_of_ne m ρ c main_arg2 (by decide)).trans (exit1_arg2 m ρ c)
theorem exit2_arg6 : W7 m ρ c (Proc.devRef .tc main_arg6) = m ((c.tc : Thread nD τ).loc main_arg6) :=
  (W7_of_ne m ρ c main_arg6 (by decide)).trans (exit1_arg6 m ρ c)

/-! ## Region 3's entry: the second layer aggregated, and its bias row -/

theorem entry3_aggregate : V10 m ρ c main_v89
    = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (HostReads.layer2_aggregate (W7 m ρ c)).trans ?_
  rw [exit2_product, exit2_sources, exit2_targets, exit2_arg2]
  rfl

theorem entry3_bias : V10 m ρ c main_v90 = Cert.ReferenceIdeal.Read.val_main_v92 (F := Ideal) (m ((c.tc : Thread nD τ).loc main_arg6)) := by
  refine (HostReads.layer2_bias (W7 m ρ c)).trans ?_
  rw [exit2_arg6]
  exact row32 _

/-! ## The result -/

/-- What the result array holds when @main returns: the reference's last stage of the seven arguments. -/
theorem result : W11 m ρ c (Proc.devRef .tc main_v91)
    = Cert.ReferenceIdeal.Read.val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W11_arr m ρ c 2).trans ?_
  rw [Blocks.region3_array (F := Ideal) (V10 m ρ) c, entry3_aggregate, entry3_bias]
  funext i
  rw [Cert.ReferenceIdeal.Read.val_main_v94_apply, Cert.ReferenceIdeal.Read.val_main_v93_apply]
  rfl

end Cert.KernelIdeal.Value

end
-- ==== Proof.lean ====
/-
  A two-layer graph convolution over N = 100 000 nodes and E = 3 200 000 weighted edges:
      h   = max (A (x · W1) + b1, 0),      out = A (h · W2) + b2,
  where A is the symmetric-normalized aggregation with self loops (Proof/Aggregation.lean).

  The kernel computes the two products x · W1 and h · W2 and the two bias steps in grid regions over ten blocks
  of 10 000 node rows (the products with operands rounded to a 16-bit format on the way in and accumulated from
  zero; the first bias step followed by the maximum with 0), and A by host operations between the regions. The
  reference computes everything by host operations over whole arrays. Read over the extended reals — a change
  of float format the identity, every operation exact — the two are one function of the seven arguments:
    • a block product accumulated from zero is the plain sum ∑ₖ x[r, k] · W[k, j] of the whole product's rows
      r of that block, and the ten blocks' rows are all the rows (Proof/MatmulBlocks.lean);
    • a bias step is pointwise in the row, so its ten blocks are the whole-array step (Proof/BiasBlocks.lean);
    • A is applied by both programs through the same operations to arguments already shown equal, and is
      never opened (Proof/HostReads.lean, Proof/KernelValue.lean).
  No law used distinguishes finite from infinite entries (a sum from zero, and equal functions of equal
  arguments), so the precondition is not consulted. The idealization rewrote nothing, so `preserves` asks nothing.
  The three frames are the generated ones; the kernel's run with its result array named is Proof/WholeRun.lean.
-/
import proofs.«124742_j64982855189201_1_alg».proof.Defs
import proofs.«124742_j64982855189201_1_alg».proof.Proof.Gen.Kernel
import proofs.«124742_j64982855189201_1_alg».proof.Proof.Gen.Kernel.Skeleton
import proofs.«124742_j64982855189201_1_alg».proof.Proof.Gen.Kernel.Launch
import proofs.«124742_j64982855189201_1_alg».proof.Proof.Gen.Kernel.Points
import proofs.«124742_j64982855189201_1_alg».proof.Proof.Gen.Kernel.Frame
import proofs.«124742_j64982855189201_1_alg».proof.Proof.Gen.KernelIdeal
import proofs.«124742_j64982855189201_1_alg».proof.Proof.Gen.KernelIdeal.Skeleton
import proofs.«124742_j64982855189201_1_alg».proof.Proof.Gen.KernelIdeal.Launch
import proofs.«124742_j64982855189201_1_alg».proof.Proof.Gen.KernelIdeal.Points
import proofs.«124742_j64982855189201_1_alg».proof.Proof.Gen.KernelIdeal.Frame
import proofs.«124742_j64982855189201_1_alg».proof.Proof.Gen.ReferenceIdeal
import proofs.«124742_j64982855189201_1_alg».proof.Proof.Gen.ReferenceIdeal.Run
import proofs.«124742_j64982855189201_1_alg».proof.Proof.Gen.ReferenceIdeal.Read
import proofs.«124742_j64982855189201_1_alg».proof.Proof.Gen.Pre_finite_inputs
import proofs.«124742_j64982855189201_1_alg».proof.Proof.WholeRun
import proofs.«124742_j64982855189201_1_alg».proof.Proof.KernelValue
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories that agree on the seven arguments both programs end with the same result array: the
    reference's last stage of the arguments. The kernel's side is its run with the result named and the value
    of that array; the reference's side is its run, its result term being that stage. -/
theorem algebraic : Cert.algebraic_KernelIdeal_ReferenceIdeal := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Value.result m ρ c), (h c).2⟩)
      (Cert.KernelIdeal.WholeRun.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
